-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S100000 : Shape := ⟨1, ![100000]⟩
abbrev S512x64 : Shape := ⟨2, ![512, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64 .f32) (main_arg7 : FVec F S64x1 .f32) (main_arg8 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x512 .f32) (main_arg1 : IVec S2x1600000 32) (main_arg2 : IVec S100000 32) (main_arg3 : FVec F S512x64 .f32) (main_arg4 : FVec F S64 .f32) (main_arg5 : FVec F S64x64 .f32) (main_arg6 : FVec F S64 .f32) (main_arg7 : FVec F S64x1 .f32) (main_arg8 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg3
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x512 : Shape := ⟨2, ![100000, 512]⟩
abbrev S2x1600000 : Shape := ⟨2, ![2, 1600000]⟩
abbrev S100000 : Shape := ⟨1, ![100000]⟩
abbrev S512x64 : Shape := ⟨2, ![512, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x64 : Shape := ⟨2, ![100000, 64]⟩
abbrev S5000x512 : Shape := ⟨2, ![5000, 512]⟩
abbrev S5000x64 : Shape := ⟨2, ![5000, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 158
  | .vmem => 10
  | .smem => 0
  | _ => 0

abbrev hbmTy0_0 (i : Nat) : BufTy := match i % 128 with
  | 0 => ⟨S100000x512, .f32⟩
  | 1 => ⟨S2x1600000, .i32⟩
  | 2 => ⟨S100000, .i32⟩
  | 3 => ⟨S512x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S100000x64, .f32⟩
  | 10 => ⟨S1x1600000, .i32⟩
  | 11 => ⟨S1600000, .i32⟩
  | 12 => ⟨S100000, .i32⟩
  | 13 => ⟨S1700000, .i32⟩
  | 14 => ⟨S1x1600000, .i32⟩
  | 15 => ⟨S1600000, .i32⟩
  | 16 => ⟨S100000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S1x1600000, .i32⟩
  | 75 => ⟨S1600000, .i32⟩
  | 76 => ⟨S100000, .i32⟩
  | 77 => ⟨S1700000, .i32⟩
  | 78 => ⟨S1x1600000, .i32⟩
  | 79 => ⟨S1600000, .i32⟩
  | 80 => ⟨S100000, .i32⟩
  | 81 => ⟨S1700000, .i32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x512, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S_, .f32⟩
  | 10 => ⟨S256x64, .f32⟩
  | 11 => ⟨S100000x1, .i32⟩
  | 12 => ⟨S256x64, .f32⟩
  | 13 => ⟨S_, .f32⟩
  | 14 => ⟨S100000, .f32⟩
  | 15 => ⟨S_, .f32⟩
  | 16 => ⟨S256, .f32⟩
  | 17 => ⟨S100000x1, .i32⟩
  | 18 => ⟨S256, .f32⟩
  | 19 => ⟨S_, .f32⟩
  | 20 => ⟨S256, .f32⟩
  | 21 => ⟨S256, .f32⟩
  | 22 => ⟨S256x1, .f32⟩
  | 23 => ⟨S256x64, .f32⟩
  | 24 => ⟨S256x64, .f32⟩
  | 25 => ⟨S256x1, .f32⟩
  | 26 => ⟨S1x1, .f32⟩
  | 27 => ⟨S256x1, .f32⟩
  | 28 => ⟨S256x1, .f32⟩
  | 29 => ⟨S256, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_c_18 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_call3_cst : Ref sig .tc := ⟨.hbm, 134, rfl⟩
abbrev main_call3_v0 : Ref sig .tc := ⟨.hbm, 135, rfl⟩
abbrev main_v97 : Ref sig .tc := ⟨.hbm, 136, rfl⟩
abbrev main_cst_20 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_21 : Ref sig .tc := ⟨.hbm, 141, rfl⟩
abbrev main_v101 : Ref sig .tc := ⟨.hbm, 142, rfl⟩
abbrev main_cst_22 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x512_S5000x512_0_0 : ∀ a, (![0, 0] : Fin 2 → Nat) a + S5000x512.size a ≤ S5000x512.size a
  h_S5000x512 : 0 < S5000x512.numel
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  dot_S5000x512_S512x64_S5000x64_1_0_0_1_n_n_wf : DotDims.WF S5000x512 S512x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S100000 : Shape := ⟨1, ![100000]⟩
abbrev S512x64 : Shape := ⟨2, ![512, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x64 : Shape := ⟨2, ![100000, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x512, .f32⟩
  | 1 => ⟨S2x1600000, .i32⟩
  | 2 => ⟨S100000, .i32⟩
  | 3 => ⟨S512x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S100000x64, .f32⟩
  | 10 => ⟨S1x1600000, .i32⟩
  | 11 => ⟨S1600000, .i32⟩
  | 12 => ⟨S100000, .i32⟩
  | 13 => ⟨S1700000, .i32⟩
  | 14 => ⟨S1x1600000, .i32⟩
  | 15 => ⟨S1600000, .i32⟩
  | 16 => ⟨S100000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x1, .f32⟩
  | 61 => ⟨S1700000x64, .f32⟩
  | 62 => ⟨S1700000x64, .f32⟩
  | 63 => ⟨S_, .f32⟩
  | 64 => ⟨S100000x64, .f32⟩
  | 65 => ⟨S1700000x1, .i32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S1x1600000, .i32⟩
  | 75 => ⟨S1600000, .i32⟩
  | 76 => ⟨S100000, .i32⟩
  | 77 => ⟨S1700000, .i32⟩
  | 78 => ⟨S1x1600000, .i32⟩
  | 79 => ⟨S1600000, .i32⟩
  | 80 => ⟨S100000, .i32⟩
  | 81 => ⟨S1700000, .i32⟩
  | 82 => ⟨S_, .f32⟩
  | 83 => ⟨S1700000, .f32⟩
  | 84 => ⟨S_, .f32⟩
  | 85 => ⟨S100000, .f32⟩
  | 86 => ⟨S1700000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000, .f32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000x64, .f32⟩
  | 124 => ⟨S1700000x1, .f32⟩
  | 125 => ⟨S1700000x64, .f32⟩
  | 126 => ⟨S1700000x64, .f32⟩
  | 127 => ⟨S_, .f32⟩
  | _ => ⟨S100000x512, .f32⟩

abbrev hbmTy0_1 (i : Nat) : BufTy := match i % 128 with
  | 0 => ⟨S100000x64, .f32⟩
  | 1 => ⟨S1700000x1, .i32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S_, .f32⟩
  | 10 => ⟨S256x64, .f32⟩
  | 11 => ⟨S100000x1, .i32⟩
  | 12 => ⟨S256x64, .f32⟩
  | 13 => ⟨S_, .f32⟩
  | 14 => ⟨S100000, .f32⟩
  | 15 => ⟨S_, .f32⟩
  | 16 => ⟨S256, .f32⟩
  | 17 => ⟨S100000x1, .i32⟩
  | 18 => ⟨S256, .f32⟩
  | 19 => ⟨S_, .f32⟩
  | 20 => ⟨S256, .f32⟩
  | 21 => ⟨S256, .f32⟩
  | 22 => ⟨S256x1, .f32⟩
  | 23 => ⟨S256x64, .f32⟩
  | 24 => ⟨S256x64, .f32⟩
  | 25 => ⟨S256x1, .f32⟩
  | 26 => ⟨S1x1, .f32⟩
  | 27 => ⟨S256x1, .f32⟩
  | 28 => ⟨S256x1, .f32⟩
  | 29 => ⟨S256, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_c_18 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_call3_cst : Ref sig .tc := ⟨.hbm, 134, rfl⟩
abbrev main_call3_v0 : Ref sig .tc := ⟨.hbm, 135, rfl⟩
abbrev main_v97 : Ref sig .tc := ⟨.hbm, 136, rfl⟩
abbrev main_cst_20 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_21 : Ref sig .tc := ⟨.hbm, 141, rfl⟩
abbrev main_v101 : Ref sig .tc := ⟨.hbm, 142, rfl⟩
abbrev main_cst_22 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  shapeCasts_S256x1_S256 : S256x1.ShapeCasts S256
  dot_S100000x512_S512x64_S100000x64_1_0_0_1_n_n_wf : DotDims.WF S100000x512 S512x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x1_S256x1_1_0_0_1_n_n_wf : DotDims.WF S256x64 S64x1 S256x1 [1] [0] [0] [1] [] []

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KernelRun.lean ====
/-
  The idealized kernel's run with its RESULT named.

  @main is eleven segments: the first row-tiled product, four stretches of host operations (the graph convolution's
  gather, scale, scatter-add, bias and the rectifier), the second row-tiled product, and five more stretches (the second
  convolution, the mean pool and the final linear layer). The buffer contents at each boundary are a fold through
  @main from the launch memory: after a stretch, the host operations' results over what the stretch found; after a
  region, the region's output array at what its twenty write-backs leave and every other buffer as found. Every weakly
  fair execution terminates with every unscoped buffer at the last boundary's contents `W11`; read at the result
  buffer this names the program's value, and at the argument buffers it gives back the launch contents.
-/
import proofs.«113843_j53970559041859_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the result
    buffer at the last boundary's contents and every argument array as launched: the segments' chain from the launch,
    the last thread state — every unscoped buffer at `W11` — read against the final state at the result buffer and at
    each argument. -/
theorem run : θ_run defs (onTc (τ := τ) (main (F := F))) ⟨m, fun _ => 0, ρ⟩ (fun r => ∀ c : Dev nD,
      r.2.mem ((c.tc : Thread nD τ).loc main_v114) = W11 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v114 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.Run

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Product.lean ====
/-
  The matrix product both programs compute at the two feature transforms, as ONE function of its operands on the
  extended reals: entry (p, q) of an M×K array times a K×N array is ∑ k, x (p, k) · w (k, q).

  The reference's `dot_general` of whole arrays is this function (`dotGeneral_eq_prod`). A row tile of the kernel — the
  vector-unit product of a 5000-row block of the left operand with the whole right operand into a zero accumulator —
  read at entry (p, q) of the tile is the same sum over the tile's own row p (`tile0_apply`, `tile1_apply`), so a tile
  is the product's rows restricted to the block. No law of the extended reals beyond 0 + s = s is used: the two sides
  are the same sum, term by term, so nothing here needs the operands to be finite.
-/
import proofs.«113843_j53970559041859_1_alg».proof.Proof.Gen.KernelIdeal.Skeleton
import proofs.«113843_j53970559041859_1_alg».proof.Proof.LibPlainDot
import Idealize.ShloMosaic.Lib.Pipeline.Value

noncomputable section

open scoped BigOperators

namespace Cert.KernelIdeal.Product

open Idealize.ShloMosaic Idealize.ShloMosaic.ValueIdx Cert.KernelIdeal Cert.KernelIdeal.Gen

/-- The product of an `M×K` array with a `K×N` array on the extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem prod_apply {M K N : ℕ} (x : (⟨2, ![M, K]⟩ : Shape).Idx → EReal) (w : (⟨2, ![K, N]⟩ : Shape).Idx → EReal)
    (p : Fin M) (q : Fin N) : prod x w (ix2 p q) = ∑ k : Fin K, x (ix2 p k) * w (ix2 k q) := rfl

/-- One sum of products read through two pairs of index maps that agree at every term. -/
theorem sum_mul_congr {ι A B : Type} [Fintype ι] (x : A → EReal) (w : B → EReal) (f f' : ι → A) (g g' : ι → B)
    (hf : ∀ k, f k = f' k) (hg : ∀ k, g k = g' k) : ∑ k, x (f k) * w (g k) = ∑ k, x (f' k) * w (g' k) :=
  Finset.sum_congr rfl fun k _ => by rw [hf k, hg k]

/-- The host's `dot_general` with the plain dimension numbers is the product, as whole arrays. -/
theorem dotGeneral_eq_prod {M K N : ℕ} (x : FVec Ideal ⟨2, ![M, K]⟩ .f32) (w : FVec Ideal ⟨2, ![K, N]⟩ .f32) :
    Host.dotGeneral (F := Ideal) (DotDims.plain M K N) none x w = prod x w := by
  funext i
  obtain ⟨p, q, rfl⟩ : ∃ (p : Fin M) (q : Fin N), i = ix2 p q := ⟨i 0, i 1, eq_ix2 i⟩
  exact Cert.Lib.PlainDot.dotGeneral_apply none .single x w p q

/-- A row tile of the first transform at entry (p, q): the sum over the 512 input features of the tile's row p. -/
theorem tile0_apply (x0 : Vec Ideal S5000x512 .f32) (x1 : Vec Ideal S512x64 .f32) (p : Fin 5000) (q : Fin 64) :
    k0_pay1 (F := Ideal) x0 x1 (ix2 p q) = ∑ k : Fin 512, x0 (ix2 p k) * x1 (ix2 k q) := by
  unfold k0_pay1
  exact Cert.Lib.PlainDot.matmul_zero_apply (M := 5000) (K := 512) (N := 64) none x0 x1 p q

/-- A row tile of the second transform at entry (p, q): the sum over the 64 hidden features of the tile's row p (the
    body's reshape of the block to its own shape changes nothing). -/
theorem tile1_apply (x0 : Vec Ideal S5000x64 .f32) (x1 : Vec Ideal S64x64 .f32) (p : Fin 5000) (q : Fin 64) :
    k1_pay1 (F := Ideal) x0 x1 (ix2 p q) = ∑ k : Fin 64, x0 (ix2 p k) * x1 (ix2 k q) := by
  unfold k1_pay1
  rw [shapeCast_self]
  exact Cert.Lib.PlainDot.matmul_zero_apply (M := 5000) (K := 64) (N := 64) none x0 x1 p q

end Cert.KernelIdeal.Product

end
-- ==== Proof.RowBlocks.lean ====
/-
  Each of the two row-tiled products leaves, in its output array, the product of its operand arrays.

  A region runs over 20 points; point t stages rows 5000·t … 5000·t + 4999 of the left operand and the whole right
  operand, multiplies them into a zero accumulator and writes the 5000×64 result back as rows 5000·t … of the output.
  Entry (p, q) of that tile is ∑ k, x (5000·t + p, k) · w (k, q): the product's entry (5000·t + p, q). The twenty
  blocks tile the 100000 rows exactly (row r lies in block r / 5000), so after the last write-back the whole output
  array is the product. Stated for any contents `V` the region is entered with, since the second region's left
  operand is computed by the host operations between the two.
-/
import proofs.«113843_j53970559041859_1_alg».proof.Proof.Gen.KernelIdeal.Frame
import proofs.«113843_j53970559041859_1_alg».proof.Proof.Product

set_option maxRecDepth 16384

noncomputable section

open scoped BigOperators

namespace Cert.KernelIdeal.RowBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Product

variable (V : (c : Dev nD) → (b : Ref sig .tc) → Buf (Elt Ideal) ((c : Thread nD τ).loc b))

theorem hz : (![0, 0] : Fin 2 → Nat) = fun _ => 0 := funext fun a => by fin_cases a <;> rfl

/-! ## The first transform (region 0): rows of `main_arg0` times `main_arg3` -/

/-- The index maps over the 20 points, decided: the left operand's block and the output's block are row block `t`, whole
    in the other axis; the right operand's one block is the whole array at every point. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` — rows 5000·t … 5000·t + 4999 — of the product of the two operand arrays as
    the region finds them: entry (p, q) of the tile sums over the tile's row p, which is row 5000·t + p of the array. -/
theorem flushed0 (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨e0, e1, e2, e3, e4, e5⟩ := idx0 t
  funext j
  obtain ⟨p, q, rfl⟩ : ∃ (p : Fin 5000) (q : Fin 64), j = ix2 p q := ⟨j 0, j 1, eq_ix2 j⟩
  refine (tile0_apply (iblk0 V c 0 t) (iblk0 V c 1 t) p q).trans ?_
  have h0 : ∀ k : Fin 512, ((cfg0.win 0).blk t).view.emb (ix2 p k) = ix2 ((((cfg0.win 2).blk t).view.emb (ix2 p q)) 0) k := by
    intro k; funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 512 + 1 * k.val = k.val; omega
  have h1 : ∀ k : Fin 512, ((cfg0.win 1).blk t).view.emb (ix2 k q) = ix2 k ((((cfg0.win 2).blk t).view.emb (ix2 p q)) 1) := by
    intro k; funext a; apply Fin.ext
    match a with
    | ⟨0, _⟩ => show win0_1.index t (0 : Fin 2) * 512 + 1 * k.val = k.val; omega
    | ⟨1, _⟩ => show win0_1.index t (1 : Fin 2) * 64 + 1 * q.val = win0_2.index t (1 : Fin 2) * 64 + 1 * q.val; omega
  exact sum_mul_congr (ι := Fin 512) (A := S100000x512.Idx) (B := S512x64.Idx) (V c main_arg0) (V c main_arg3)
    (fun k => ((cfg0.win 0).blk t).view.emb (ix2 p k)) (fun k => ix2 ((((cfg0.win 2).blk t).view.emb (ix2 p q)) 0) k)
    (fun k => ((cfg0.win 1).blk t).view.emb (ix2 k q)) (fun k => ix2 k ((((cfg0.win 2).blk t).view.emb (ix2 p q)) 1)) h0 h1

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The twenty row blocks tile the 100000 rows: row r is in block r / 5000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by show _ < 20; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region's twenty write-backs: the product of the operand arrays as the region found them. -/
theorem final0 (c : Dev nD) : (dat0 V c).arrAt 2 cfg0.N = prod (V c main_arg0) (V c main_arg3) :=
  (dat0 V c).arrAt_eq_of_cover 2 (prod (V c main_arg0) (V c main_arg3)) (fun t _ => flushed0 V c t) cover0

/-! ## The second transform (region 1): rows of `main_v48` times `main_arg5` -/

/-- The index maps over the 20 points, decided: the left operand's block and the output's block are row block `t`, whole
    in the other axis; the right operand's one block is the whole array at every point. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` — rows 5000·t … 5000·t + 4999 — of the product of the two operand arrays as
    the region finds them: entry (p, q) of the tile sums over the tile's row p, which is row 5000·t + p of the array. -/
theorem flushed1 (c : Dev nD) (t : Fin cfg1.N) :
    (dat1 V c).flushed 2 t = ((cfg1.win 2).blk t).view.read (Elt Ideal) (prod (V c main_v48) (V c main_arg5)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e0, e1, e2, e3, e4, e5⟩ := idx1 t
  funext j
  obtain ⟨p, q, rfl⟩ : ∃ (p : Fin 5000) (q : Fin 64), j = ix2 p q := ⟨j 0, j 1, eq_ix2 j⟩
  refine (tile1_apply (iblk1 V c 0 t) (iblk1 V c 1 t) p q).trans ?_
  have h0 : ∀ k : Fin 64, ((cfg1.win 0).blk t).view.emb (ix2 p k) = ix2 ((((cfg1.win 2).blk t).view.emb (ix2 p q)) 0) k := by
    intro k; funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * k.val = k.val; omega
  have h1 : ∀ k : Fin 64, ((cfg1.win 1).blk t).view.emb (ix2 k q) = ix2 k ((((cfg1.win 2).blk t).view.emb (ix2 p q)) 1) := by
    intro k; funext a; apply Fin.ext
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega
  exact sum_mul_congr (ι := Fin 64) (A := S100000x64.Idx) (B := S64x64.Idx) (V c main_v48) (V c main_arg5)
    (fun k => ((cfg1.win 0).blk t).view.emb (ix2 p k)) (fun k => ix2 ((((cfg1.win 2).blk t).view.emb (ix2 p q)) 0) k)
    (fun k => ((cfg1.win 1).blk t).view.emb (ix2 k q)) (fun k => ix2 k ((((cfg1.win 2).blk t).view.emb (ix2 p q)) 1)) h0 h1

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- The twenty row blocks tile the 100000 rows: row r is in block r / 5000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by show _ < 20; omega⟩, rfl⟩
  obtain ⟨e0, e1, e2, e3, e4, e5⟩ := idx1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the region's twenty write-backs: the product of the operand arrays as the region found them. -/
theorem final1 (c : Dev nD) : (dat1 V c).arrAt 2 cfg1.N = prod (V c main_v48) (V c main_arg5) :=
  (dat1 V c).arrAt_eq_of_cover 2 (prod (V c main_v48) (V c main_arg5)) (fun t _ => flushed1 V c t) cover1

end Cert.KernelIdeal.RowBlocks

end
-- ==== Proof.Boundaries.lean ====
/-
  What the buffers that the host operations read hold at the boundaries of the kernel's run.

  No host operation and no region writes an argument, so an argument's buffer holds its launch contents at every
  boundary (for any reading of the floats). On the extended reals, the first product's output array is the product of
  the launch contents of x and W1, and the second product's output array is the product of the rectified first
  convolution — whatever the host operations between the two regions left in its buffer — with the launch contents of W2.
-/
import proofs.«113843_j53970559041859_1_alg».proof.Proof.Gen.KernelIdeal.Frame
import proofs.«113843_j53970559041859_1_alg».proof.Proof.RowBlocks
import Idealize.ShloMosaic.PureOps.Ideal

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen Cert.KernelIdeal.Product

section Arguments

variable {F : FTy → Type} [FloatOps F]
variable (m : (ℓ : Loc nD τ sig) → Buf (Elt F) ℓ) (ρ : Dev nD → PrngReg)

/-! ## After the first product: the arguments the first convolution reads -/

theorem W1_arg1 (c : Dev nD) : W1 m ρ c (Proc.devRef .tc main_arg1) = m ((c : Thread nD τ).loc main_arg1) :=
  W1_of_ne m ρ c main_arg1 (by decide)
theorem W1_arg4 (c : Dev nD) : W1 m ρ c (Proc.devRef .tc main_arg4) = m ((c : Thread nD τ).loc main_arg4) :=
  W1_of_ne m ρ c main_arg4 (by decide)

/-! ## At the second product's entry: the arguments the rest of @main reads are as launched -/

set_option maxHeartbeats 4000000

theorem W5_arg1 (c : Dev nD) : W5 m ρ c (Proc.devRef .tc main_arg1) = m ((c : Thread nD τ).loc main_arg1) := by
  dsimp only [W5, W4, W3, W2, hostOps1_3, hostOps1_2, hostOps1_1, hostOps1]
  after_results_simp
  exact W1_of_ne m ρ c main_arg1 (by decide)

theorem W5_arg2 (c : Dev nD) : W5 m ρ c (Proc.devRef .tc main_arg2) = m ((c : Thread nD τ).loc main_arg2) := by
  dsimp only [W5, W4, W3, W2, hostOps1_3, hostOps1_2, hostOps1_1, hostOps1]
  after_results_simp
  exact W1_of_ne m ρ c main_arg2 (by decide)

theorem W5_arg5 (c : Dev nD) : W5 m ρ c (Proc.devRef .tc main_arg5) = m ((c : Thread nD τ).loc main_arg5) := by
  dsimp only [W5, W4, W3, W2, hostOps1_3, hostOps1_2, hostOps1_1, hostOps1]
  after_results_simp
  exact W1_of_ne m ρ c main_arg5 (by decide)

theorem W5_arg6 (c : Dev nD) : W5 m ρ c (Proc.devRef .tc main_arg6) = m ((c : Thread nD τ).loc main_arg6) := by
  dsimp only [W5, W4, W3, W2, hostOps1_3, hostOps1_2, hostOps1_1, hostOps1]
  after_results_simp
  exact W1_of_ne m ρ c main_arg6 (by decide)

theorem W5_arg7 (c : Dev nD) : W5 m ρ c (Proc.devRef .tc main_arg7) = m ((c : Thread nD τ).loc main_arg7) := by
  dsimp only [W5, W4, W3, W2, hostOps1_3, hostOps1_2, hostOps1_1, hostOps1]
  after_results_simp
  exact W1_of_ne m ρ c main_arg7 (by decide)

theorem W5_arg8 (c : Dev nD) : W5 m ρ c (Proc.devRef .tc main_arg8) = m ((c : Thread nD τ).loc main_arg8) := by
  dsimp only [W5, W4, W3, W2, hostOps1_3, hostOps1_2, hostOps1_1, hostOps1]
  after_results_simp
  exact W1_of_ne m ρ c main_arg8 (by decide)

/-! ## After the second product -/

theorem W6_arg1 (c : Dev nD) : W6 m ρ c (Proc.devRef .tc main_arg1) = m ((c : Thread nD τ).loc main_arg1) :=
  (W6_of_ne m ρ c main_arg1 (by decide)).trans (W5_arg1 m ρ c)

theorem W6_arg2 (c : Dev nD) : W6 m ρ c (Proc.devRef .tc main_arg2) = m ((c : Thread nD τ).loc main_arg2) :=
  (W6_of_ne m ρ c main_arg2 (by decide)).trans (W5_arg2 m ρ c)

theorem W6_arg6 (c : Dev nD) : W6 m ρ c (Proc.devRef .tc main_arg6) = m ((c : Thread nD τ).loc main_arg6) :=
  (W6_of_ne m ρ c main_arg6 (by decide)).trans (W5_arg6 m ρ c)

theorem W6_arg7 (c : Dev nD) : W6 m ρ c (Proc.devRef .tc main_arg7) = m ((c : Thread nD τ).loc main_arg7) :=
  (W6_of_ne m ρ c main_arg7 (by decide)).trans (W5_arg7 m ρ c)

theorem W6_arg8 (c : Dev nD) : W6 m ρ c (Proc.devRef .tc main_arg8) = m ((c : Thread nD τ).loc main_arg8) :=
  (W6_of_ne m ρ c main_arg8 (by decide)).trans (W5_arg8 m ρ c)

end Arguments

section Products

variable (m : (ℓ : Loc nD τ sig) → Buf (Elt Ideal) ℓ) (ρ : Dev nD → PrngReg)

/-- The first product's output array: x · W1, of the launch contents. -/
theorem W1_v0 (c : Dev nD) :
    W1 m ρ c (Proc.devRef .tc main_v0) = prod (m ((c : Thread nD τ).loc main_arg0)) (m ((c : Thread nD τ).loc main_arg3)) :=
  (W1_arr m ρ c 2).trans (RowBlocks.final0 (V0 m ρ) c)

/-- The second product's output array: (what the first convolution left) · W2. -/
theorem W6_v49 (c : Dev nD) :
    W6 m ρ c (Proc.devRef .tc main_v49) = prod (W5 m ρ c (Proc.devRef .tc main_v48)) (m ((c : Thread nD τ).loc main_arg5)) :=
  ((W6_arr m ρ c 2).trans (RowBlocks.final1 (V5 m ρ) c)).trans (congrArg (prod (W5 m ρ c (Proc.devRef .tc main_v48))) (W5_arg5 m ρ c))

end Products

end Cert.KernelIdeal.Boundaries

end
-- ==== Proof.Result.lean ====
/-
  The two programs' results are one function of the arguments.

  Both programs are the same chain of host operations — self loops appended to the edge list, the degrees by a
  scatter-add of ones, the symmetric normalisation d^(-1/2)[src] · d^(-1/2)[dst], gather, scale, scatter-add, bias,
  rectifier, twice over; then the mean pool and the final linear layer — around two feature transforms h ↦ h · W. The
  reference computes each transform by one `dot_general`; the kernel by a row-tiled product.

  `chain_eq` is the part that holds for any reading of the floats: IF each region's output array is the reference's
  `dot_general` of the region's operands, then reading the kernel's result through its last stretches of host
  operations down to the second product's output, and through the middle stretches down to the first product's, gives
  the reference's composed term — the same tree, operation by operation. `value_eq` discharges the two hypotheses on the
  extended reals, where a row-tiled product and `dot_general` are the same sums.
-/
import proofs.«113843_j53970559041859_1_alg».proof.Proof.Boundaries
import proofs.«113843_j53970559041859_1_alg».proof.Proof.RefRun

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.KernelIdeal.Product Cert.KernelIdeal.Boundaries

/-- The edge endpoints with the self loops appended: the 1600000 given endpoints followed by the nodes 0 … 99999, as a
    function of its two pieces (the host's two-operand concatenation along the one axis). -/
def cat2 (a : IVec S1600000 32) (b : IVec S100000 32) : IVec S1700000 32 :=
  concatenate S1700000 0 [⟨S1600000, a⟩, ⟨S100000, b⟩] concatenates_S1600000_S100000_S1700000_d0

theorem cat2_eq (a : IVec S1600000 32) (b : IVec S100000 32) :
    concatenate S1700000 0 [⟨S1600000, a⟩, ⟨S100000, b⟩] concatenates_S1600000_S100000_S1700000_d0 = cat2 a b := rfl

section Chain

variable {F : FTy → Type} [FloatOps F]
variable (m : (ℓ : Loc nD τ sig) → Buf (Elt F) ℓ) (ρ : Dev nD → PrngReg)
  (m' : (ℓ : Loc Cert.ReferenceIdeal.nD Cert.ReferenceIdeal.τ Cert.ReferenceIdeal.sig) → Buf (Elt F) ℓ)

set_option maxHeartbeats 8000000 in
/-- From memories that agree on the nine arguments, and given that each region's output array is the reference's
    `dot_general` of the region's operand arrays, the kernel's result buffer at the end of its run holds the reference's
    composed term. -/
theorem chain_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (hA : W1 m ρ c (Proc.devRef .tc main_v0)
      = Host.dotGeneral Cert.ReferenceIdeal.dot_S100000x512_S512x64_S100000x64_1_0_0_1_n_n none (m ((c : Thread nD τ).loc main_arg0)) (m ((c : Thread nD τ).loc main_arg3)))
    (hD : W6 m ρ c (Proc.devRef .tc main_v49)
      = Host.dotGeneral Cert.ReferenceIdeal.dot_S100000x64_S64x64_S100000x64_1_0_0_1_n_n none (W5 m ρ c (Proc.devRef .tc main_v48)) (m ((c : Thread nD τ).loc main_arg5))) :
    W11 m ρ c (Proc.devRef .tc main_v114) = Cert.ReferenceIdeal.ValueP.res_main_v114 (F := F) m' c := by
  unfold Cert.ReferenceIdeal.ValueP.res_main_v114
  rw [h0, h1, h2, h3, h4, h5, h6, h7, h8]
  dsimp only [W11, W10, W9, W8, W7, hostOps2_4, hostOps2_3, hostOps2_2, hostOps2_1, hostOps2]
  simp only [cat2_eq]
  after_results_simp
  rw [hD, W6_arg1, W6_arg2, W6_arg6, W6_arg7, W6_arg8]
  dsimp only [W5, W4, W3, W2, hostOps1_3, hostOps1_2, hostOps1_1, hostOps1]
  simp only [cat2_eq]
  after_results_simp
  rw [hA, W1_arg1, W1_arg4]
  rfl

end Chain

section OnTheExtendedReals

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- The reference's first transform is the product x · W1. -/
theorem ref_dot1 (x : FVec Ideal Cert.ReferenceIdeal.S100000x512 .f32) (w : FVec Ideal Cert.ReferenceIdeal.S512x64 .f32) :
    Host.dotGeneral (F := Ideal) Cert.ReferenceIdeal.dot_S100000x512_S512x64_S100000x64_1_0_0_1_n_n none x w = prod x w :=
  dotGeneral_eq_prod (M := 100000) (K := 512) (N := 64) x w

/-- The reference's second transform is the product h · W2. -/
theorem ref_dot2 (x : FVec Ideal Cert.ReferenceIdeal.S100000x64 .f32) (w : FVec Ideal Cert.ReferenceIdeal.S64x64 .f32) :
    Host.dotGeneral (F := Ideal) Cert.ReferenceIdeal.dot_S100000x64_S64x64_S100000x64_1_0_0_1_n_n none x w = prod x w :=
  dotGeneral_eq_prod (M := 100000) (K := 64) (N := 64) x w

/-- On the extended reals, from memories that agree on the nine arguments, the kernel's result buffer at the end of its
    run holds the reference's composed term. -/
theorem value_eq (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    W11 m ρ c (Proc.devRef .tc main_v114) = Cert.ReferenceIdeal.ValueP.res_main_v114 (F := Ideal) m' c :=
  chain_eq m ρ m' c h0 h1 h2 h3 h4 h5 h6 h7 h8
    ((W1_v0 m ρ c).trans (ref_dot1 _ _).symm) ((W6_v49 m ρ c).trans (ref_dot2 _ _).symm)

end OnTheExtendedReals

end Cert.KernelIdeal.Result

end
-- ==== Proof.Claims.lean ====
/-
  The five claims.

  The three frames: the two kernel programs run (terminate, nothing faulting, the arguments unchanged) by the segments'
  chain through the two regions and the host stretches; the reference, a straight line of host operations, by its run
  with the result dropped. The idealization rewrote no operation, so there is nothing to preserve. The algebraic claim:
  from memories agreeing on the arguments the kernel's run ends with its result buffer at the last boundary's contents,
  the reference's with its result at its composed term, and those are one function of the arguments
  (`Result.value_eq`): the two row-tiled products are the reference's two `dot_general`s, entry by entry the same sums,
  and every other operation is shared. The precondition is never opened: the sums are equal term by term, at infinite
  entries as well.
-/
import proofs.«113843_j53970559041859_1_alg».proof.Defs
import proofs.«113843_j53970559041859_1_alg».proof.Proof.Gen.Kernel.Frame
import proofs.«113843_j53970559041859_1_alg».proof.Proof.Gen.KernelIdeal.Frame
import proofs.«113843_j53970559041859_1_alg».proof.Proof.Gen.Pre_finite_inputs
import proofs.«113843_j53970559041859_1_alg».proof.Proof.KernelRun
import proofs.«113843_j53970559041859_1_alg».proof.Proof.RefRun
import proofs.«113843_j53970559041859_1_alg».proof.Proof.Result

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at one array: the kernel's at the last boundary's contents, the reference's at its
    composed term, equal by `Result.value_eq` from the arguments' agreement. -/
theorem algebraic : Cert.algebraic_KernelIdeal_ReferenceIdeal := by
  intro m ρ m' ρ' _ hagree
  refine ⟨fun c => Cert.KernelIdeal.Gen.W11 m ρ c (Proc.devRef .tc Cert.KernelIdeal.main_v114),
    Cert.KernelIdeal.Run.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  exact (Cert.KernelIdeal.Result.value_eq m ρ m' c h0 h1 h2 h3 h4 h5 h6 h7 h8).symm

end Cert.Proof.Claims

end
-- ==== Proof.lean ====
/- The proof of `Cert.Claim`: the programs' stated facts are the instances the generated modules prove; the five claims —
   the three frames, the (empty) idealization ledger, and the equality of the two idealized programs' results — are
   proved in Proof/Claims.lean over the row-block products (Proof/RowBlocks.lean), the kernel's run with its result
   named (Proof/KernelRun.lean) and the comparison of the two chains of host operations (Proof/Result.lean). -/
import proofs.«113843_j53970559041859_1_alg».proof.Defs
import proofs.«113843_j53970559041859_1_alg».proof.Proof.Gen.Kernel
import proofs.«113843_j53970559041859_1_alg».proof.Proof.Gen.Kernel.Skeleton
import proofs.«113843_j53970559041859_1_alg».proof.Proof.Gen.Kernel.Launch
import proofs.«113843_j53970559041859_1_alg».proof.Proof.Gen.Kernel.Points
import proofs.«113843_j53970559041859_1_alg».proof.Proof.Gen.Kernel.Frame
import proofs.«113843_j53970559041859_1_alg».proof.Proof.Gen.KernelIdeal
import proofs.«113843_j53970559041859_1_alg».proof.Proof.Gen.KernelIdeal.Skeleton
import proofs.«113843_j53970559041859_1_alg».proof.Proof.Gen.KernelIdeal.Launch
import proofs.«113843_j53970559041859_1_alg».proof.Proof.Gen.KernelIdeal.Points
import proofs.«113843_j53970559041859_1_alg».proof.Proof.Gen.KernelIdeal.Frame
import proofs.«113843_j53970559041859_1_alg».proof.Proof.Gen.ReferenceIdeal
import proofs.«113843_j53970559041859_1_alg».proof.Proof.Gen.Pre_finite_inputs
import proofs.«113843_j53970559041859_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
